-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x8x64 : Shape := ⟨4, ![1, 512, 8, 64]⟩
abbrev S_ : Shape := ⟨0, ![]⟩

class Facts : Prop where
  bcast_S_S1x512x8x64 : S_.BroadcastsInDim S1x512x8x64 (![] : Fin 0 → Fin S1x512x8x64.rank)
  reducesTo_S1x512x8x64_S_d0_1_2_3 : S1x512x8x64.ReducesTo [0, 1, 2, 3] S_
  h_S_ : 0 < S_.numel

variable [Facts]

def fn {F : FTy → Type} [FloatOps F] (main_arg0 : FVec F S1x512x8x64 .f32) (main_arg1 : FVec F S1x512x8x64 .f32) : IVec S_ 1 :=
  let main_v0 : FVec F S1x512x8x64 .f32 := Host.absf main_arg0
  let main_cst : FVec F S_ .f32 := constant S_ .f32 0x7F800000#32
  let main_v1 : FVec F S1x512x8x64 .f32 := broadcastInDim S1x512x8x64 ![] bcast_S_S1x512x8x64 main_cst
  let main_v2 : IVec S1x512x8x64 1 := cmpf .olt main_v0 main_v1
  let main_c : IVec S_ 1 := constantI S_ 1 1#1
  let main_v3 : IVec S_ 1 := (fun x v => Host.reduce IntOp.andi x v reducesTo_S1x512x8x64_S_d0_1_2_3 h_S_) main_v2 main_c
  let main_v4 : FVec F S1x512x8x64 .f32 := Host.absf main_arg1
  let main_cst_0 : FVec F S_ .f32 := constant S_ .f32 0x7F800000#32
  let main_v5 : FVec F S1x512x8x64 .f32 := broadcastInDim S1x512x8x64 ![] bcast_S_S1x512x8x64 main_cst_0
  let main_v6 : IVec S1x512x8x64 1 := cmpf .olt main_v4 main_v5
  let main_c_1 : IVec S_ 1 := constantI S_ 1 1#1
  let main_v7 : IVec S_ 1 := (fun x v => Host.reduce IntOp.andi x v reducesTo_S1x512x8x64_S_d0_1_2_3 h_S_) main_v6 main_c_1
  let main_v8 : IVec S_ 1 := andi main_v3 main_v7
  main_v8
-- ==== Kernel.lean ====
abbrev S1x512x8x64 : Shape := ⟨4, ![1, 512, 8, 64]⟩
abbrev S512x8x64 : Shape := ⟨3, ![512, 8, 64]⟩
abbrev S8x64x512 : Shape := ⟨3, ![8, 64, 512]⟩
abbrev S8x512x512 : Shape := ⟨3, ![8, 512, 512]⟩
abbrev S1x64x512 : Shape := ⟨3, ![1, 64, 512]⟩
abbrev S1x64x128 : Shape := ⟨3, ![1, 64, 128]⟩
abbrev S1x128x512 : Shape := ⟨3, ![1, 128, 512]⟩
abbrev S128x512 : Shape := ⟨2, ![128, 512]⟩
abbrev S1x16x512 : Shape := ⟨3, ![1, 16, 512]⟩
abbrev S16x512 : Shape := ⟨2, ![16, 512]⟩
abbrev S1x16x128 : Shape := ⟨3, ![1, 16, 128]⟩
abbrev S16x128 : Shape := ⟨2, ![16, 128]⟩
abbrev S16x1x512 : Shape := ⟨3, ![16, 1, 512]⟩
abbrev S16x128x1 : Shape := ⟨3, ![16, 128, 1]⟩
abbrev S16x128x512 : Shape := ⟨3, ![16, 128, 512]⟩
abbrev S1x8x512x512 : Shape := ⟨4, ![1, 8, 512, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x512x8x64, .f32⟩
  | .hbm, ⟨1, _⟩ => ⟨S1x512x8x64, .f32⟩
  | .hbm, ⟨2, _⟩ => ⟨S512x8x64, .f32⟩
  | .hbm, ⟨3, _⟩ => ⟨S8x64x512, .f32⟩
  | .hbm, ⟨4, _⟩ => ⟨S512x8x64, .f32⟩
  | .hbm, ⟨5, _⟩ => ⟨S8x64x512, .f32⟩
  | .hbm, ⟨6, _⟩ => ⟨S8x512x512, .f32⟩
  | .hbm, ⟨7, _⟩ => ⟨S1x8x512x512, .f32⟩
  | .local _ .vmem, ⟨0, _⟩ => ⟨S1x64x512, .f32⟩
  | .local _ .vmem, ⟨1, _⟩ => ⟨S1x64x512, .f32⟩
  | .local _ .vmem, ⟨2, _⟩ => ⟨S1x64x128, .f32⟩
  | .local _ .vmem, ⟨3, _⟩ => ⟨S1x64x128, .f32⟩
  | .local _ .vmem, ⟨4, _⟩ => ⟨S1x128x512, .f32⟩
  | .local _ .vmem, ⟨5, _⟩ => ⟨S1x128x512, .f32⟩
  | _, _ => ⟨S1x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x512x8x64_S512x8x64 : S1x512x8x64.ShapeCasts S512x8x64
  transposes_S512x8x64_S8x64x512_1_2_0 : S512x8x64.Transposes [1, 2, 0] S8x64x512
  inb_S1x64x512_S1x16x512_0_0_0 : ∀ a, (![0, 0, 0] : Fin 3 → Nat) a + S1x16x512.size a ≤ S1x64x512.size a
  h_S1x16x512 : 0 < S1x16x512.numel
  shapeCasts_S1x16x512_S16x512 : S1x16x512.ShapeCasts S16x512
  inb_S1x64x128_S1x16x128_0_0_0 : ∀ a, (![0, 0, 0] : Fin 3 → Nat) a + S1x16x128.size a ≤ S1x64x128.size a
  h_S1x16x128 : 0 < S1x16x128.numel
  shapeCasts_S1x16x128_S16x128 : S1x16x128.ShapeCasts S16x128
  shapeCasts_S16x512_S16x1x512 : S16x512.ShapeCasts S16x1x512
  shapeCasts_S16x128_S16x128x1 : S16x128.ShapeCasts S16x128x1
  broadcasts_S16x1x512_S16x128x512 : S16x1x512.Broadcasts S16x128x512
  broadcasts_S16x128x1_S16x128x512 : S16x128x1.Broadcasts S16x128x512
  reduces_S16x128x512_S128x512 : S16x128x512.Reduces [0] S128x512
  inb_S1x64x512_S1x16x512_0_16_0 : ∀ a, (![0, 16, 0] : Fin 3 → Nat) a + S1x16x512.size a ≤ S1x64x512.size a
  inb_S1x64x128_S1x16x128_0_16_0 : ∀ a, (![0, 16, 0] : Fin 3 → Nat) a + S1x16x128.size a ≤ S1x64x128.size a
  inb_S1x64x512_S1x16x512_0_32_0 : ∀ a, (![0, 32, 0] : Fin 3 → Nat) a + S1x16x512.size a ≤ S1x64x512.size a
  inb_S1x64x128_S1x16x128_0_32_0 : ∀ a, (![0, 32, 0] : Fin 3 → Nat) a + S1x16x128.size a ≤ S1x64x128.size a
  inb_S1x64x512_S1x16x512_0_48_0 : ∀ a, (![0, 48, 0] : Fin 3 → Nat) a + S1x16x512.size a ≤ S1x64x512.size a
  inb_S1x64x128_S1x16x128_0_48_0 : ∀ a, (![0, 48, 0] : Fin 3 → Nat) a + S1x16x128.size a ≤ S1x64x128.size a
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  bcast_S8x512x512_S1x8x512x512_1_2_3 : S8x512x512.BroadcastsInDim S1x8x512x512 (![1, 2, 3] : Fin 3 → Fin S1x8x512x512.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x64x512.size a
  hwx0_0 : ∀ i : grid0.Coords, EltTy.bits .f32 = 32 ∨ (Rect.block (s := S8x64x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x512.size a
  hwx0_1 : ∀ i : grid0.Coords, EltTy.bits .f32 = 32 ∨ (Rect.block (s := S8x64x512) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x512x512.size a
  hwx0_2 : ∀ i : grid0.Coords, EltTy.bits .f32 = 32 ∨ (Rect.block (s := S8x512x512) S1x128x512.size (cc0_transform_2 i) (hinb0_2 i)).WholeWords (EltTy.packing .f32)

variable [Facts₀]

abbrev win0_0 : Pipeline.Window sig grid0 :=
  Pipeline.Window.ofSpec (Memref.whole main_v1) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x512x8x64 : Shape := ⟨4, ![1, 512, 8, 64]⟩
abbrev S1x1x512x8x64 : Shape := ⟨5, ![1, 1, 512, 8, 64]⟩
abbrev S1x512x1x8x64 : Shape := ⟨5, ![1, 512, 1, 8, 64]⟩
abbrev S1x512x512x8x64 : Shape := ⟨5, ![1, 512, 512, 8, 64]⟩
abbrev S_ : Shape := ⟨0, ![]⟩
abbrev S1x512x512x8 : Shape := ⟨4, ![1, 512, 512, 8]⟩
abbrev S1x8x512x512 : Shape := ⟨4, ![1, 8, 512, 512]⟩

abbrev nBuf : Space → Nat
  | .hbm => 20
  | .vmem => 0
  | .smem => 0
  | _ => 0

abbrev bufTy : (tb : Table) → Fin (tcTables nBuf tb) → BufTy
  | .hbm, ⟨0, _⟩ => ⟨S1x512x8x64, .f32⟩
  | .hbm, ⟨1, _⟩ => ⟨S1x512x8x64, .f32⟩
  | .hbm, ⟨2, _⟩ => ⟨S1x1x512x8x64, .f32⟩
  | .hbm, ⟨3, _⟩ => ⟨S1x512x1x8x64, .f32⟩
  | .hbm, ⟨4, _⟩ => ⟨S1x512x512x8x64, .f32⟩
  | .hbm, ⟨5, _⟩ => ⟨S1x512x512x8x64, .f32⟩
  | .hbm, ⟨6, _⟩ => ⟨S1x512x512x8x64, .f32⟩
  | .hbm, ⟨7, _⟩ => ⟨S1x512x512x8x64, .f32⟩
  | .hbm, ⟨8, _⟩ => ⟨S_, .f32⟩
  | .hbm, ⟨9, _⟩ => ⟨S1x512x512x8, .f32⟩
  | .hbm, ⟨10, _⟩ => ⟨S_, .f32⟩
  | .hbm, ⟨11, _⟩ => ⟨S1x512x512x8, .f32⟩
  | .hbm, ⟨12, _⟩ => ⟨S1x512x512x8, .f32⟩
  | .hbm, ⟨13, _⟩ => ⟨S1x8x512x512, .f32⟩
  | .hbm, ⟨14, _⟩ => ⟨S_, .f32⟩
  | .hbm, ⟨15, _⟩ => ⟨S1x8x512x512, .f32⟩
  | .hbm, ⟨16, _⟩ => ⟨S1x8x512x512, .f32⟩
  | .hbm, ⟨17, _⟩ => ⟨S_, .f32⟩
  | .hbm, ⟨18, _⟩ => ⟨S1x8x512x512, .f32⟩
  | .hbm, ⟨19, _⟩ => ⟨S1x8x512x512, .f32⟩
  | _, _ => ⟨S1x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S1x512x8x64_S1x1x512x8x64_0_2_3_4 : S1x512x8x64.BroadcastsInDim S1x1x512x8x64 (![0, 2, 3, 4] : Fin 4 → Fin S1x1x512x8x64.rank)
  bcast_S1x512x8x64_S1x512x1x8x64_0_1_3_4 : S1x512x8x64.BroadcastsInDim S1x512x1x8x64 (![0, 1, 3, 4] : Fin 4 → Fin S1x512x1x8x64.rank)
  bcast_S1x1x512x8x64_S1x512x512x8x64_0_1_2_3_4 : S1x1x512x8x64.BroadcastsInDim S1x512x512x8x64 (![0, 1, 2, 3, 4] : Fin 5 → Fin S1x512x512x8x64.rank)
  bcast_S1x512x1x8x64_S1x512x512x8x64_0_1_2_3_4 : S1x512x1x8x64.BroadcastsInDim S1x512x512x8x64 (![0, 1, 2, 3, 4] : Fin 5 → Fin S1x512x512x8x64.rank)
  reducesTo_S1x512x512x8x64_S1x512x512x8_d4 : S1x512x512x8x64.ReducesTo [4] S1x512x512x8
  h_S_ : 0 < S_.numel
  bcast_S_S1x512x512x8 : S_.BroadcastsInDim S1x512x512x8 (![] : Fin 0 → Fin S1x512x512x8.rank)
  transposes_S1x512x512x8_S1x8x512x512_0_3_1_2 : S1x512x512x8.Transposes [0, 3, 1, 2] S1x8x512x512
  bcast_S_S1x8x512x512 : S_.BroadcastsInDim S1x8x512x512 (![] : Fin 0 → Fin S1x8x512x512.rank)

variable [Facts₀]

class Facts : Prop extends Facts₀ where

variable [Facts]
-- ==== Proof.L1Spec.lean ====
/-
  Pairwise L1-distance attention weights, over the extended reals.

  For arrays q, k of shape [1, 512, 8, 64] the weight at head h, key position s and query position t is

      1 / (ε + d(h, s, t) · (1/8)),      d(h, s, t) = Σ_w |q[0, t, h, w] − k[0, s, h, w]|   (w over the 64 width coordinates),

  where |x| = max x (−x), ε is the single-precision word 0x3A83126F, 1/8 the word 0x3E000000 and 1 the word
  0x3F800000, each read as its exact value, and the quotient is the extended reals' own.

  The sum over the 64 width coordinates may be taken in four runs of 16 consecutive coordinates accumulated from zero:
  addition on the extended reals is a commutative monoid, so this regrouping needs no finiteness of the entries.
-/
import Idealize.ShloMosaic.PureOps.Ideal
import Idealize.ShloMosaic.Lib.ValueIdx

noncomputable section

namespace Cert.L1Attn

open Idealize.ShloMosaic Idealize.ShloMosaic.ValueIdx

/-- `|x|` on the extended reals. -/
def eabs (x : EReal) : EReal := max x (-x)

/-- The L1 distance between the query row at `(t, h)` and the key row at `(s, h)`. -/
def dist (q k : (⟨4, ![1, 512, 8, 64]⟩ : Shape).Idx → EReal) (h : Fin 8) (s t : Fin 512) : EReal :=
  ∑ w : Fin 64, eabs (q (ix4 (0 : Fin 1) t h w) - k (ix4 (0 : Fin 1) s h w))

/-- The weight of a distance `d`: `1 / (ε + d · (1/8))`. -/
def weight (d : EReal) : EReal :=
  Ideal.div (Ideal.ofBits .f32 0x3F800000#32) (Ideal.ofBits .f32 0x3A83126F#32 + d * Ideal.ofBits .f32 0x3E000000#32)

/-- The weight at head `h`, key position `s`, query position `t`. -/
def attnAt (q k : (⟨4, ![1, 512, 8, 64]⟩ : Shape).Idx → EReal) (h : Fin 8) (s t : Fin 512) : EReal :=
  weight (dist q k h s t)

/-- The weights as an array of shape [8, 512, 512], indexed (h, s, t). -/
def attn3 (q k : (⟨4, ![1, 512, 8, 64]⟩ : Shape).Idx → EReal) : (⟨3, ![8, 512, 512]⟩ : Shape).Idx → EReal :=
  fun i => attnAt q k ⟨(i 0).val, (i 0).isLt⟩ ⟨(i 1).val, (i 1).isLt⟩ ⟨(i 2).val, (i 2).isLt⟩

/-- The weights as an array of shape [1, 8, 512, 512], indexed (0, h, s, t). -/
def attn (q k : (⟨4, ![1, 512, 8, 64]⟩ : Shape).Idx → EReal) : (⟨4, ![1, 8, 512, 512]⟩ : Shape).Idx → EReal :=
  fun i => attnAt q k ⟨(i 1).val, (i 1).isLt⟩ ⟨(i 2).val, (i 2).isLt⟩ ⟨(i 3).val, (i 3).isLt⟩

/-- A sum over 64 consecutive coordinates is the sum of its four runs of 16, accumulated from zero in order: in any
    commutative additive monoid. -/
theorem sum_runs {M : Type*} [AddCommMonoid M] (g : Fin 64 → M) :
    ∑ w : Fin 64, g w
      = (((0 + ∑ l : Fin 16, g ⟨l.val, by omega⟩) + ∑ l : Fin 16, g ⟨16 + l.val, by omega⟩)
          + ∑ l : Fin 16, g ⟨32 + l.val, by omega⟩) + ∑ l : Fin 16, g ⟨48 + l.val, by omega⟩ := by
  -- extend `g` to the naturals, so that the sums become sums over initial segments
  obtain ⟨f, hf⟩ : ∃ f : ℕ → M, ∀ (n : ℕ) (h : n < 64), g ⟨n, h⟩ = f n :=
    ⟨fun n => if h : n < 64 then g ⟨n, h⟩ else 0, fun n h => by dsimp only; rw [dif_pos h]⟩
  have whole : ∑ w : Fin 64, g w = ∑ n ∈ Finset.range 64, f n := by
    rw [← Fin.sum_univ_eq_sum_range]
    exact Finset.sum_congr rfl fun w _ => hf w.val w.isLt
  have run0 : ∑ l : Fin 16, g ⟨l.val, by omega⟩ = ∑ n ∈ Finset.range 16, f n := by
    rw [← Fin.sum_univ_eq_sum_range]
    exact Finset.sum_congr rfl fun l _ => hf _ _
  have run (o : ℕ) (ho : o + 16 ≤ 64) :
      ∑ l : Fin 16, g ⟨o + l.val, by omega⟩ = ∑ n ∈ Finset.range 16, f (o + n) := by
    rw [← Fin.sum_univ_eq_sum_range (fun n => f (o + n))]
    exact Finset.sum_congr rfl fun l _ => hf _ _
  have split : ∑ n ∈ Finset.range 64, f n
      = ∑ n ∈ Finset.range 16, f n + ∑ n ∈ Finset.range 16, f (16 + n) + ∑ n ∈ Finset.range 16, f (32 + n)
        + ∑ n ∈ Finset.range 16, f (48 + n) :=
    (Finset.sum_range_add f 48 16).trans
      (congrArg (· + _) ((Finset.sum_range_add f 32 16).trans (congrArg (· + _) (Finset.sum_range_add f 16 16))))
  rw [whole, split, run0, run 16 (by omega), run 32 (by omega), run 48 (by omega), zero_add]

end Cert.L1Attn

end
-- ==== Proof.L1Ref.lean ====
/-
  The reference program's result is the array of L1-distance attention weights.

  Read one operation at a time, the reference broadcasts q along a new key-position axis and k along a new query-position
  axis, subtracts, takes absolute values, sums over the width axis from zero, scales by 1/8, moves the head axis forward,
  adds ε and divides 1 by the result. At index (0, h, s, t) this is 1 / (ε + (0 + Σ_w |q[0,t,h,w] − k[0,s,h,w]|) · (1/8));
  the leading zero is the zero word, which is 0.
-/
import proofs.«149871_j12670153523838_2_alg».proof.Proof.Gen.ReferenceIdeal.Read
import proofs.«149871_j12670153523838_2_alg».proof.Proof.L1Spec
import Idealize.ShloMosaic.PureOps.Ideal.Laws

noncomputable section

namespace Cert.L1Attn.Ref

open Cert.ReferenceIdeal Cert.ReferenceIdeal.Gen Cert.ReferenceIdeal.Read
open Idealize.ShloMosaic Idealize.ShloMosaic.ValueIdx Cert.L1Attn

/-- The query entry the width sum reads at output index `i` and width coordinate `w`: q[0, t, h, w]. -/
theorem q_index (i : S1x8x512x512.Idx) (w : Fin 64) :
    idx_main_v0 (idx_main_v2 (idx_main_v6 (idx_main_v9 i) w))
      = ix4 (0 : Fin 1) (⟨(i 3).val, (i 3).isLt⟩ : Fin 512) (⟨(i 1).val, (i 1).isLt⟩ : Fin 8) w :=
  funext fun a => Fin.ext (by match a with | ⟨0, _⟩ => rfl | ⟨1, _⟩ => rfl | ⟨2, _⟩ => rfl | ⟨3, _⟩ => rfl)

/-- The key entry it reads: k[0, s, h, w]. -/
theorem k_index (i : S1x8x512x512.Idx) (w : Fin 64) :
    idx_main_v1 (idx_main_v3 (idx_main_v6 (idx_main_v9 i) w))
      = ix4 (0 : Fin 1) (⟨(i 2).val, (i 2).isLt⟩ : Fin 512) (⟨(i 1).val, (i 1).isLt⟩ : Fin 8) w :=
  funext fun a => Fin.ext (by match a with | ⟨0, _⟩ => rfl | ⟨1, _⟩ => rfl | ⟨2, _⟩ => rfl | ⟨3, _⟩ => rfl)

/-- The reference's last stage, as a function of the two argument arrays, is the array of weights. -/
theorem result_eq (x0 x1 : (⟨S1x512x8x64, .f32⟩ : BufTy).Contents (Elt Ideal)) :
    val_main_v13 (F := Ideal) x0 x1 = attn x0 x1 := by
  funext i
  rw [val_main_v13_apply, val_main_v12_apply, val_main_cst_2_apply, val_main_v11_apply, val_main_v10_apply,
    val_main_cst_1_apply, val_main_v9_apply, val_main_v8_apply, val_main_v6_apply, val_main_v7_apply,
    val_main_cst_0_apply, val_main_cst_apply]
  simp only [val_main_v5_apply, val_main_v4_apply, val_main_v2_apply, val_main_v3_apply, val_main_v0_apply,
    val_main_v1_apply, q_index, k_index]
  show Ideal.div (Ideal.ofBits .f32 0x3F800000#32)
      (Ideal.ofBits .f32 0x3A83126F#32 + (Ideal.ofBits .f32 0x00000000#32 + _) * Ideal.ofBits .f32 0x3E000000#32) = _
  rw [Ideal.ofBits_zero_f32, zero_add]
  rfl

end Cert.L1Attn.Ref

end
-- ==== Proof.L1Body.lean ====
/-
  What the kernel body computes, at an index.

  The body reads the query block (64 width rows by 512 query positions) and the key block (64 width rows by 128 key
  positions) in four runs of 16 width rows. For each run it spreads the query rows along a new key axis and the key rows
  along a new query axis, subtracts, takes absolute values and sums over the 16 rows; the four sums are accumulated from
  zero, scaled by 1/8, added to ε, and 1 is divided by the result.

  So at key position sl and query position t of the block the stored value is the weight of
      (((0 + R₀) + R₁) + R₂) + R₃,     R_c = Σ_{l < 16} |a_c[0, l, t] − b_c[0, l, sl]|,
  where a_c, b_c are the c-th runs of the query and key blocks.
-/
import proofs.«149871_j12670153523838_2_alg».proof.Proof.Gen.KernelIdeal.Skeleton
import proofs.«149871_j12670153523838_2_alg».proof.Proof.L1Spec
import Idealize.ShloMosaic.Lib.Pipeline.Value
import Idealize.ShloMosaic.Lib.ValueLayout
import Idealize.ShloMosaic.PureOps.Ideal.Laws

noncomputable section

namespace Cert.L1Attn.Body

open Cert.KernelIdeal Cert.KernelIdeal.Gen
open Idealize.ShloMosaic Idealize.ShloMosaic.ValueIdx Cert.L1Attn

variable {F : FTy → Type} [FloatOps F]

/-- One run of 16 width rows: at (sl, t), the sum over the rows l of |a[0, l, t] − b[0, l, sl]|. -/
def run16 (a : Vec F S1x16x512 .f32) (b : Vec F S1x16x128 .f32) : FVec F S128x512 .f32 :=
  multiReduction .add [0] S128x512
    (absf (subf
      (broadcastTo S16x128x512
        (shapeCast S16x1x512 (shapeCast S16x512 a shapeCasts_S1x16x512_S16x512) shapeCasts_S16x512_S16x1x512)
        broadcasts_S16x1x512_S16x128x512)
      (broadcastTo S16x128x512
        (shapeCast S16x128x1 (shapeCast S16x128 b shapeCasts_S1x16x128_S16x128) shapeCasts_S16x128_S16x128x1)
        broadcasts_S16x128x1_S16x128x512)))
    0x00000000#32 reduces_S16x128x512_S128x512 (.inl rfl) rfl

/-- The third run's sum is a run. -/
theorem pay3_eq (a : Vec F S1x16x512 .f32) (b : Vec F S1x16x128 .f32) : k0_pay3 a b = run16 a b := rfl

/-- The first two runs, accumulated from the zero vector. -/
theorem pay2_eq (a0 : Vec F S1x16x512 .f32) (b0 : Vec F S1x16x128 .f32) (a1 : Vec F S1x16x512 .f32)
    (b1 : Vec F S1x16x128 .f32) :
    k0_pay2 a0 b0 a1 b1
      = addf (addf (broadcast S128x512 (Scalar.ofBits .f32 0x00000000#32)) (run16 a0 b0)) (run16 a1 b1) := rfl

/-- The stored value: the fourth run joins the accumulated three, then scale, shift and reciprocal, with the block's
    leading unit axis added. -/
theorem pay1_eq (v24 v35 : FVec F S128x512 .f32) (a : Vec F S1x16x512 .f32) (b : Vec F S1x16x128 .f32) :
    k0_pay1 v24 v35 a b
      = shapeCast S1x128x512
          (divf (broadcast S128x512 (Scalar.ofBits .f32 0x3F800000#32))
            (addf (broadcast S128x512 (Scalar.ofBits .f32 0x3A83126F#32))
              (mulf (addf (addf v24 v35) (run16 a b)) (broadcast S128x512 (Scalar.ofBits .f32 0x3E000000#32)))))
          shapeCasts_S128x512_S1x128x512 := rfl

/-- The query rows spread along the key axis: at (l, sl, t) the entry is the query run's row l at t. -/
theorem qrows_apply (a : Vec Ideal S1x16x512 .f32) (l : Fin 16) (sl : Fin 128) (t : Fin 512) :
    broadcastTo S16x128x512
        (shapeCast S16x1x512 (shapeCast S16x512 a shapeCasts_S1x16x512_S16x512) shapeCasts_S16x512_S16x1x512)
        broadcasts_S16x1x512_S16x128x512 (ix3 l sl t)
      = a (ix3 (0 : Fin 1) l t) := by
  refine (broadcastTo_apply _ broadcasts_S16x1x512_S16x128x512 (ix3 l sl t) (ix3 l (0 : Fin 1) t) (fun c => ?_)).trans ?_
  · match c with
    | ⟨0, _⟩ => show l.val = if (16 : Nat) = 1 then 0 else l.val; rw [if_neg (by decide)]
    | ⟨1, _⟩ => show 0 = if (1 : Nat) = 1 then 0 else sl.val; rw [if_pos rfl]
    | ⟨2, _⟩ => show t.val = if (512 : Nat) = 1 then 0 else t.val; rw [if_neg (by decide)]
  refine (shapeCast_apply _ shapeCasts_S16x512_S16x1x512 (ix3 l (0 : Fin 1) t) (ix2 l t) ?_).trans ?_
  · rw [Shape.rowMajor_val_two, Shape.rowMajor_val_three]
    show l.val * 512 + t.val = (l.val * 1 + 0) * 512 + t.val
    omega
  exact shapeCast_1ab_ab_apply a shapeCasts_S1x16x512_S16x512 l t

/-- The key rows spread along the query axis: at (l, sl, t) the entry is the key run's row l at sl. -/
theorem krows_apply (b : Vec Ideal S1x16x128 .f32) (l : Fin 16) (sl : Fin 128) (t : Fin 512) :
    broadcastTo S16x128x512
        (shapeCast S16x128x1 (shapeCast S16x128 b shapeCasts_S1x16x128_S16x128) shapeCasts_S16x128_S16x128x1)
        broadcasts_S16x128x1_S16x128x512 (ix3 l sl t)
      = b (ix3 (0 : Fin 1) l sl) := by
  refine (broadcastTo_apply _ broadcasts_S16x128x1_S16x128x512 (ix3 l sl t) (ix3 l sl (0 : Fin 1)) (fun c => ?_)).trans ?_
  · match c with
    | ⟨0, _⟩ => show l.val = if (16 : Nat) = 1 then 0 else l.val; rw [if_neg (by decide)]
    | ⟨1, _⟩ => show sl.val = if (128 : Nat) = 1 then 0 else sl.val; rw [if_neg (by decide)]
    | ⟨2, _⟩ => show 0 = if (1 : Nat) = 1 then 0 else t.val; rw [if_pos rfl]
  refine (shapeCast_apply _ shapeCasts_S16x128_S16x128x1 (ix3 l sl (0 : Fin 1)) (ix2 l sl) ?_).trans ?_
  · rw [Shape.rowMajor_val_two, Shape.rowMajor_val_three]
    show l.val * 128 + sl.val = (l.val * 128 + sl.val) * 1 + 0
    omega
  exact shapeCast_1ab_ab_apply b shapeCasts_S1x16x128_S16x128 l sl

/-- A run at (sl, t): the sum over its 16 rows of the absolute differences. -/
theorem run16_apply (a : Vec Ideal S1x16x512 .f32) (b : Vec Ideal S1x16x128 .f32) (sl : Fin 128) (t : Fin 512) :
    run16 (F := Ideal) a b (ix2 sl t)
      = ∑ l : Fin 16, eabs (a (ix3 (0 : Fin 1) l t) - b (ix3 (0 : Fin 1) l sl)) := by
  unfold run16
  refine (Ideal.multiReduction_add_single _ 0x00000000#32 reduces_S16x128x512_S128x512 (.inl rfl) rfl (ix2 sl t)).trans ?_
  refine Finset.sum_congr rfl fun l _ => ?_
  have hl : reduces_S16x128x512_S128x512.lift (ix2 sl t) l = ix3 (⟨l.val, l.isLt⟩ : Fin 16) sl t :=
    funext fun c => Fin.ext (by match c with | ⟨0, _⟩ => rfl | ⟨1, _⟩ => rfl | ⟨2, _⟩ => rfl)
  rw [hl]
  exact congrArg₂ (fun x y : EReal => eabs (x - y)) (qrows_apply a ⟨l.val, l.isLt⟩ sl t) (krows_apply b ⟨l.val, l.isLt⟩ sl t)

/-- THE STORED VALUE at (u, sl, t): the weight of the four runs' sums accumulated from zero. -/
theorem payload_apply (a0 a1 a2 a3 : Vec Ideal S1x16x512 .f32) (b0 b1 b2 b3 : Vec Ideal S1x16x128 .f32)
    (u : Fin 1) (sl : Fin 128) (t : Fin 512) :
    k0_pay1 (F := Ideal) (k0_pay2 a0 b0 a1 b1) (k0_pay3 a2 b2) a3 b3 (ix3 u sl t)
      = weight ((((0 + ∑ l : Fin 16, eabs (a0 (ix3 (0 : Fin 1) l t) - b0 (ix3 (0 : Fin 1) l sl)))
            + ∑ l : Fin 16, eabs (a1 (ix3 (0 : Fin 1) l t) - b1 (ix3 (0 : Fin 1) l sl)))
            + ∑ l : Fin 16, eabs (a2 (ix3 (0 : Fin 1) l t) - b2 (ix3 (0 : Fin 1) l sl)))
            + ∑ l : Fin 16, eabs (a3 (ix3 (0 : Fin 1) l t) - b3 (ix3 (0 : Fin 1) l sl))) := by
  rw [pay1_eq, pay2_eq, pay3_eq]
  refine (shapeCast_ab_1ab_apply _ shapeCasts_S128x512_S1x128x512 u sl t).trans ?_
  show Ideal.div (Ideal.ofBits .f32 0x3F800000#32)
      (Ideal.ofBits .f32 0x3A83126F#32
        + ((((Ideal.ofBits .f32 0x00000000#32 + run16 (F := Ideal) a0 b0 (ix2 sl t)) + run16 (F := Ideal) a1 b1 (ix2 sl t))
              + run16 (F := Ideal) a2 b2 (ix2 sl t)) + run16 (F := Ideal) a3 b3 (ix2 sl t))
          * Ideal.ofBits .f32 0x3E000000#32) = _
  rw [run16_apply, run16_apply, run16_apply, run16_apply, Ideal.ofBits_zero_f32]
  rfl

end Cert.L1Attn.Body

end
-- ==== Proof.L1Store.lean ====
/-
  What one grid point stores, as a function of its two input blocks.

  The four runs of 16 rows the body loads are rows 0–15, 16–31, 32–47 and 48–63 of the query block X0 (shape
  [1, 64, 512]) and of the key block X1 (shape [1, 64, 128]). Summing their absolute differences run by run from zero is
  summing over all 64 rows, so the value stored at (u, sl, t) is the weight of
      Σ_{w < 64} |X0[0, w, t] − X1[0, w, sl]|.
-/
import proofs.«149871_j12670153523838_2_alg».proof.Proof.Gen.KernelIdeal.Frame
import proofs.«149871_j12670153523838_2_alg».proof.Proof.L1Body

noncomputable section

namespace Cert.L1Attn.Store

open Cert.KernelIdeal Cert.KernelIdeal.Gen
open Idealize.ShloMosaic Idealize.ShloMosaic.ValueIdx Cert.L1Attn Cert.L1Attn.Body

/-- The zero offsets, however spelt. -/
theorem zero_offsets : (![0, 0, 0] : Fin 3 → Nat) = fun _ => 0 := funext fun a => by fin_cases a <;> rfl

/-- Sixteen rows of the query block loaded from row `o`: row `l` of the load is row `o + l` of the block. -/
theorem query_rows (X0 : Vec Ideal S1x64x512 .f32) (o : Nat)
    (inb : ∀ a, (![0, o, 0] : Fin 3 → Nat) a + S1x16x512.size a ≤ S1x64x512.size a) (ho : o + 16 ≤ 64)
    (l : Fin 16) (t : Fin 512) :
    View.ld X0 (Rect.unit (s := S1x64x512) ![0, o, 0] S1x16x512.size inb) (ix3 (0 : Fin 1) l t)
      = X0 (ix3 (0 : Fin 1) (⟨o + l.val, by omega⟩ : Fin 64) t) :=
  congrArg X0 (funext fun a => Fin.ext (by
    match a with
    | ⟨0, _⟩ => show 0 + 1 * 0 = 0; omega
    | ⟨1, _⟩ => show o + 1 * l.val = o + l.val; omega
    | ⟨2, _⟩ => show 0 + 1 * t.val = t.val; omega))

/-- Sixteen rows of the key block loaded from row `o`. -/
theorem key_rows (X1 : Vec Ideal S1x64x128 .f32) (o : Nat)
    (inb : ∀ a, (![0, o, 0] : Fin 3 → Nat) a + S1x16x128.size a ≤ S1x64x128.size a) (ho : o + 16 ≤ 64)
    (l : Fin 16) (sl : Fin 128) :
    View.ld X1 (Rect.unit (s := S1x64x128) ![0, o, 0] S1x16x128.size inb) (ix3 (0 : Fin 1) l sl)
      = X1 (ix3 (0 : Fin 1) (⟨o + l.val, by omega⟩ : Fin 64) sl) :=
  congrArg X1 (funext fun a => Fin.ext (by
    match a with
    | ⟨0, _⟩ => show 0 + 1 * 0 = 0; omega
    | ⟨1, _⟩ => show o + 1 * l.val = o + l.val; omega
    | ⟨2, _⟩ => show 0 + 1 * sl.val = sl.val; omega))

/-- One run's term: the absolute difference of the loaded rows is that of the blocks' rows `o + l`. -/
theorem run_term (X0 : Vec Ideal S1x64x512 .f32) (X1 : Vec Ideal S1x64x128 .f32) (o : Nat)
    (inb0 : ∀ a, (![0, o, 0] : Fin 3 → Nat) a + S1x16x512.size a ≤ S1x64x512.size a)
    (inb1 : ∀ a, (![0, o, 0] : Fin 3 → Nat) a + S1x16x128.size a ≤ S1x64x128.size a) (ho : o + 16 ≤ 64)
    (l : Fin 16) (sl : Fin 128) (t : Fin 512) :
    eabs (View.ld X0 (Rect.unit (s := S1x64x512) ![0, o, 0] S1x16x512.size inb0) (ix3 (0 : Fin 1) l t)
        - View.ld X1 (Rect.unit (s := S1x64x128) ![0, o, 0] S1x16x128.size inb1) (ix3 (0 : Fin 1) l sl))
      = eabs (X0 (ix3 (0 : Fin 1) (⟨o + l.val, by omega⟩ : Fin 64) t) - X1 (ix3 (0 : Fin 1) (⟨o + l.val, by omega⟩ : Fin 64) sl)) :=
  congrArg₂ (fun x y : EReal => eabs (x - y)) (query_rows X0 o inb0 ho l t) (key_rows X1 o inb1 ho l sl)

/-- THE STORED BLOCK at (u, sl, t): the weight of the L1 distance between column t of the query block and column sl of
    the key block. -/
theorem stored_apply (X0 : Vec Ideal S1x64x512 .f32) (X1 : Vec Ideal S1x64x128 .f32) (u : Fin 1) (sl : Fin 128)
    (t : Fin 512) :
    out0_2 X0 X1 (ix3 u sl t)
      = weight (∑ w : Fin 64, eabs (X0 (ix3 (0 : Fin 1) w t) - X1 (ix3 (0 : Fin 1) w sl))) := by
  unfold out0_2
  rw [View.canon_unit_zero zero_offsets]
  refine (payload_apply (View.ld X0 r0_0) (View.ld X0 r0_2) (View.ld X0 r0_4) (View.ld X0 r0_6)
    (View.ld X1 r0_1) (View.ld X1 r0_3) (View.ld X1 r0_5) (View.ld X1 r0_7) u sl t).trans ?_
  refine congrArg weight ?_
  rw [sum_runs (fun w : Fin 64 => eabs (X0 (ix3 (0 : Fin 1) w t) - X1 (ix3 (0 : Fin 1) w sl)))]
  refine congrArg₂ (· + ·) (congrArg₂ (· + ·) (congrArg₂ (· + ·) (congrArg (0 + ·) ?_) ?_) ?_) ?_
  · refine Finset.sum_congr rfl fun l _ => ?_
    refine (run_term X0 X1 0 _ _ (by omega) l sl t).trans ?_
    exact congrArg₂ (fun a b : Fin 64 => eabs (X0 (ix3 (0 : Fin 1) a t) - X1 (ix3 (0 : Fin 1) b sl)))
      (Fin.ext (Nat.zero_add _)) (Fin.ext (Nat.zero_add _))
  · exact Finset.sum_congr rfl fun l _ => run_term X0 X1 16 _ _ (by omega) l sl t
  · exact Finset.sum_congr rfl fun l _ => run_term X0 X1 32 _ _ (by omega) l sl t
  · exact Finset.sum_congr rfl fun l _ => run_term X0 X1 48 _ _ (by omega) l sl t

end Cert.L1Attn.Store

end
-- ==== Proof.L1Host.lean ====
/-
  The arrays the kernel's windows stage, read at an index.

  Before the region the program drops q's leading unit axis and moves the query-position axis last:
  the array staged by the first window holds, at (h, w, t), the entry q[0, t, h, w]; likewise the array staged by
  the second window holds k[0, s, h, w] at (h, w, s).
-/
import proofs.«149871_j12670153523838_2_alg».proof.Proof.Gen.KernelIdeal.Frame
import Idealize.ShloMosaic.Lib.Pipeline.Value
import Idealize.ShloMosaic.Lib.ValueLayout
import Idealize.ShloMosaic.Lib.StableHlo.Run

noncomputable section

namespace Cert.L1Attn.Host

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The first window's array as the region finds it: q with its unit axis dropped and its axes permuted. -/
theorem V_v1 (c : Dev nD) :
    (V m c main_v1 : S8x64x512.Idx → EReal)
      = transpose S8x64x512 [1, 2, 0]
          (shapeCast S512x8x64 (m ((c : Thread nD τ).loc main_arg0)) shapeCasts_S1x512x8x64_S512x8x64)
          transposes_S512x8x64_S8x64x512_1_2_0 := by
  show StableHlo.after hostOps0 (fun b => m (c, b)) (Proc.devRef .tc main_v1) = _
  after_results
  rfl

/-- The second window's array: k likewise. -/
theorem V_v3 (c : Dev nD) :
    (V m c main_v3 : S8x64x512.Idx → EReal)
      = transpose S8x64x512 [1, 2, 0]
          (shapeCast S512x8x64 (m ((c : Thread nD τ).loc main_arg1)) shapeCasts_S1x512x8x64_S512x8x64)
          transposes_S512x8x64_S8x64x512_1_2_0 := by
  show StableHlo.after hostOps0 (fun b => m (c, b)) (Proc.devRef .tc main_v3) = _
  after_results
  rfl

/-- An array of shape [1, 512, 8, 64] with its unit axis dropped and its axes permuted to [8, 64, 512], at (h, w, p):
    the array's entry (0, p, h, w). -/
theorem relaid_apply (x : S1x512x8x64.Idx → EReal) (h : Fin 8) (w : Fin 64) (p : Fin 512) :
    transpose S8x64x512 [1, 2, 0] (shapeCast S512x8x64 x shapeCasts_S1x512x8x64_S512x8x64)
        transposes_S512x8x64_S8x64x512_1_2_0 (ix3 h w p)
      = x (ix4 (0 : Fin 1) p h w) := by
  refine (transpose_apply [1, 2, 0] _ transposes_S512x8x64_S8x64x512_1_2_0 (ix3 h w p) (ix3 p h w)
    (fun b => match b with | ⟨0, _⟩ => rfl | ⟨1, _⟩ => rfl | ⟨2, _⟩ => rfl)).trans ?_
  exact shapeCast_1abc_abc_apply x shapeCasts_S1x512x8x64_S512x8x64 p h w

/-- The first window's array at (h, w, t) is q[0, t, h, w]. -/
theorem V_v1_apply (c : Dev nD) (h : Fin 8) (w : Fin 64) (t : Fin 512) :
    (V m c main_v1 : S8x64x512.Idx → EReal) (ix3 h w t) = m ((c : Thread nD τ).loc main_arg0) (ix4 (0 : Fin 1) t h w) := by
  rw [V_v1]
  exact relaid_apply _ h w t

/-- The second window's array at (h, w, s) is k[0, s, h, w]. -/
theorem V_v3_apply (c : Dev nD) (h : Fin 8) (w : Fin 64) (s : Fin 512) :
    (V m c main_v3 : S8x64x512.Idx → EReal) (ix3 h w s) = m ((c : Thread nD τ).loc main_arg1) (ix4 (0 : Fin 1) s h w) := by
  rw [V_v3]
  exact relaid_apply _ h w s

end Cert.L1Attn.Host

end
-- ==== Proof.L1Blocks.lean ====
/-
  From the grid's blocks to the whole array of weights.

  The grid has a point per head h and per run of 128 key positions. At a point with block indices (h, b) the query
  window holds q's rows of head h (all 512 query positions), the key window holds k's rows of head h at key positions
  128·b … 128·b + 127, and the output window is rows 128·b … 128·b + 127 of head h of the result, all 512 columns.
  So what the point writes back at (0, sl, t) is the weight at head h, key position 128·b + sl, query position t:
  the block of ONE array of weights. The output blocks tile the result, so after the last point the result is that array.
-/
import proofs.«149871_j12670153523838_2_alg».proof.Proof.L1Store
import proofs.«149871_j12670153523838_2_alg».proof.Proof.L1Host
import Idealize.ShloMosaic.Lib.Pipeline.Value

noncomputable section

namespace Cert.L1Attn.Blocks

open Cert.KernelIdeal Cert.KernelIdeal.Gen
open Idealize.ShloMosaic Idealize.ShloMosaic.TcCoe Idealize.ShloMosaic.ValueIdx Idealize.SL.Sem
open Idealize.ShloMosaic.Pipeline (Dat)
open Cert.L1Attn

variable (m : (ℓ : Loc nD τ sig) → Buf (Elt Ideal) ℓ)

/-- The array of weights of the two argument arrays, indexed (h, s, t). -/
abbrev weights (c : Dev nD) : S8x512x512.Idx → EReal :=
  attn3 (m ((c : Thread nD τ).loc main_arg0)) (m ((c : Thread nD τ).loc main_arg1))

/-- The three windows' block indices over the grid: the query window follows the output's head and stays at the
    origin elsewhere; the key window follows the output's head and its run of key positions; the output's column
    index is 0, its head index at most 7 and its run index at most 3. -/
theorem index_facts : ∀ t : Fin cfg0.N,
    win0_0.index t (0 : Fin 3) = win0_2.index t (0 : Fin 3) ∧ win0_0.index t (1 : Fin 3) = 0
    ∧ win0_0.index t (2 : Fin 3) = 0
    ∧ win0_1.index t (0 : Fin 3) = win0_2.index t (0 : Fin 3) ∧ win0_1.index t (1 : Fin 3) = 0
    ∧ win0_1.index t (2 : Fin 3) = win0_2.index t (1 : Fin 3)
    ∧ win0_2.index t (2 : Fin 3) = 0 ∧ win0_2.index t (0 : Fin 3) ≤ 7 ∧ win0_2.index t (1 : Fin 3) ≤ 3 :=
  (by decide +kernel : ∀ t : Fin grid0.N, _)

/-- Every pair (head, run of key positions) is some point's output block. -/
theorem index_onto : ∀ (h : Fin 8) (b : Fin 4), ∃ t : Fin cfg0.N, win0_2.index t = ![h.val, b.val, 0] :=
  (by decide +kernel : ∀ (h : Fin 8) (b : Fin 4), ∃ t : Fin grid0.N, win0_2.index t = ![h.val, b.val, 0])

/-- WHAT POINT `t` WRITES BACK is block `t` of the array of weights. -/
theorem flushed_eq (c : Dev nD) (t : Fin cfg0.N) :
    (dats m 0 c).flushed 2 t = ((cfg0.win 2).blk t).view.read (Elt Ideal) (weights m c) := by
  show (cfg0.win 2).cut (grid0.coords t) ((dats m 0 c).after 2 t) = _
  rw [after0_2]
  obtain ⟨e0, e1, e2, e3, e4, e5, e6, e7, e8⟩ := index_facts t
  funext y
  obtain ⟨u, sl, p, rfl⟩ : ∃ (u : Fin 1) (sl : Fin 128) (p : Fin 512), y = ix3 u sl p := ⟨y 0, y 1, y 2, eq_ix3 y⟩
  have hu : u.val = 0 := by omega
  -- the output block's element (u, sl, p) sits at (h, 128·b + sl, p) of the result
  have out_at : ((cfg0.win 2).blk t).view.emb (ix3 u sl p)
      = ix3 (⟨win0_2.index t (0 : Fin 3), by omega⟩ : Fin 8)
          (⟨win0_2.index t (1 : Fin 3) * 128 + sl.val, by have := sl.isLt; omega⟩ : Fin 512) p := by
    funext a; apply Fin.ext
    match a with
    | ⟨0, _⟩ => show win0_2.index t (0 : Fin 3) * 1 + 1 * u.val = win0_2.index t (0 : Fin 3); omega
    | ⟨1, _⟩ => show win0_2.index t (1 : Fin 3) * 128 + 1 * sl.val = win0_2.index t (1 : Fin 3) * 128 + sl.val; omega
    | ⟨2, _⟩ => show win0_2.index t (2 : Fin 3) * 512 + 1 * p.val = p.val; omega
  show out0_2 (iblk m c 0 t) (iblk m c 1 t) (ix3 u sl p) = weights m c (((cfg0.win 2).blk t).view.emb (ix3 u sl p))
  rw [out_at]
  refine (Store.stored_apply (iblk m c 0 t) (iblk m c 1 t) u sl p).trans ?_
  refine congrArg weight (Finset.sum_congr rfl fun w _ => congrArg₂ (fun x y : EReal => eabs (x - y)) ?_ ?_)
  · -- the query block's element (0, w, p) sits at (h, w, p) of the re-laid q
    have q_at : ((cfg0.win 0).blk t).view.emb (ix3 (0 : Fin 1) w p)
        = ix3 (⟨win0_2.index t (0 : Fin 3), by omega⟩ : Fin 8) w p := by
      funext a; apply Fin.ext
      match a with
      | ⟨0, _⟩ => show win0_0.index t (0 : Fin 3) * 1 + 1 * 0 = win0_2.index t (0 : Fin 3); omega
      | ⟨1, _⟩ => show win0_0.index t (1 : Fin 3) * 64 + 1 * w.val = w.val; omega
      | ⟨2, _⟩ => show win0_0.index t (2 : Fin 3) * 512 + 1 * p.val = p.val; omega
    show V m c main_v1 (((cfg0.win 0).blk t).view.emb (ix3 (0 : Fin 1) w p)) = _
    rw [q_at]
    exact Host.V_v1_apply m c _ w p
  · -- the key block's element (0, w, sl) sits at (h, w, 128·b + sl) of the re-laid k
    have k_at : ((cfg0.win 1).blk t).view.emb (ix3 (0 : Fin 1) w sl)
        = ix3 (⟨win0_2.index t (0 : Fin 3), by omega⟩ : Fin 8) w
            (⟨win0_2.index t (1 : Fin 3) * 128 + sl.val, by have := sl.isLt; omega⟩ : Fin 512) := by
      funext a; apply Fin.ext
      match a with
      | ⟨0, _⟩ => show win0_1.index t (0 : Fin 3) * 1 + 1 * 0 = win0_2.index t (0 : Fin 3); omega
      | ⟨1, _⟩ => show win0_1.index t (1 : Fin 3) * 64 + 1 * w.val = w.val; omega
      | ⟨2, _⟩ => show win0_1.index t (2 : Fin 3) * 128 + 1 * sl.val = win0_2.index t (1 : Fin 3) * 128 + sl.val; omega
    show V m c main_v3 (((cfg0.win 1).blk t).view.emb (ix3 (0 : Fin 1) w sl)) = _
    rw [k_at]
    exact Host.V_v3_apply m c _ w _

/-- An index of the result is in point `t`'s output block iff each coordinate is in the block's range on its axis. -/
theorem mem_block (t : Fin cfg0.N) (i : S8x512x512.Idx) :
    i ∈ ((cfg0.win 2).blk t).view.set ↔ ∀ a : Fin 3, win0_2.index t a * S1x128x512.size a ≤ (i a).val
      ∧ (i a).val < win0_2.index t a * S1x128x512.size a + S1x128x512.size a := by
  show i ∈ ((View.whole main_v4).slice (win0_2.rect t)).set ↔ _
  rw [View.set_slice_whole, Rect.mem_set_unit]
  exact Iff.rfl

/-- Every index of the result is in some point's output block: head `i 0`, run `(i 1) / 128`. -/
theorem covered (i : S8x512x512.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 512 := (i 2).isLt
  obtain ⟨t, ht⟩ := index_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 512 ≤ (i 2).val ∧ (i 2).val < win0_2.index t (2 : Fin 3) * 512 + 512
    omega

/-- THE RESULT of the region: the array of weights. -/
theorem final (c : Dev nD) : (dats m 0 c).arrAt 2 cfg0.N = weights m c :=
  (dats m 0 c).arrAt_eq_of_cover 2 (weights m c) (fun t _ => flushed_eq m c t) covered

end Cert.L1Attn.Blocks

end
-- ==== Proof.L1Run.lean ====
/-
  The kernel program's run, with its result named.

  After the region the program adds a leading unit axis to the region's array: the result at (0, h, s, t) is the region's
  array at (h, s, t), which is the weight at head h, key position s, query position t. The two argument arrays end as
  they were launched.
-/
import proofs.«149871_j12670153523838_2_alg».proof.Proof.L1Blocks
import Idealize.ShloMosaic.Lib.StableHlo.Run

noncomputable section

namespace Cert.L1Attn.Run

open Cert.KernelIdeal Cert.KernelIdeal.Gen
open Idealize.ShloMosaic Idealize.ShloMosaic.TcCoe Idealize.ShloMosaic.ValueIdx Idealize.SL.Sem
open Cert.L1Attn

variable (m : (ℓ : Loc nD τ sig) → Buf (Elt Ideal) ℓ) (ρ : Dev nD → PrngReg)

/-- An array that is the weights indexed (h, s, t), given a leading unit axis, is the weights indexed (0, h, s, t). -/
theorem lead_unit (x : S8x512x512.Idx → EReal) (q k : S1x512x8x64.Idx → EReal) (hx : x = attn3 q k) :
    broadcastInDim S1x8x512x512 ![1, 2, 3] bcast_S8x512x512_S1x8x512x512_1_2_3 x = attn q k := by
  subst hx
  funext i
  refine (broadcastInDim_apply _ bcast_S8x512x512_S1x8x512x512_1_2_3 (attn3 q k) i
    (ix3 (⟨(i 1).val, (i 1).isLt⟩ : Fin 8) (⟨(i 2).val, (i 2).isLt⟩ : Fin 512) (⟨(i 3).val, (i 3).isLt⟩ : Fin 512))
    (fun a => ?_)).trans rfl
  match a with
  | ⟨0, _⟩ => show (i 1).val = if (8 : Nat) = 1 then 0 else (i 1).val; rw [if_neg (by decide)]
  | ⟨1, _⟩ => show (i 2).val = if (512 : Nat) = 1 then 0 else (i 2).val; rw [if_neg (by decide)]
  | ⟨2, _⟩ => show (i 3).val = if (512 : Nat) = 1 then 0 else (i 3).val; rw [if_neg (by decide)]

/-- What the line after the region leaves in the program's result: the array of weights. -/
theorem tail_eq (c : Dev nD) :
    Pipeline.afterTail₀ cfgs (dats m) 0 (V0 m) [hostOps1] c main_v5
      = attn (m ((c : Thread nD τ).loc main_arg0)) (m ((c : Thread nD τ).loc main_arg1)) := by
  unfold Pipeline.afterTail₀
  show StableHlo.after hostOps1 _ (Proc.devRef .tc main_v5) = _
  after_results
  exact lead_unit _ _ _
    ((Pipeline.withArrays_arr spec0 launch0.win.arr_inj c (V0 m c) (fun w => (dats m 0 c).arrAt w cfg0.N) 2).trans
      (Blocks.final m c))

/-- Every weakly fair execution of the kernel program terminates with its result at the array of weights of the two
    argument arrays, and the argument arrays unchanged. -/
theorem run : θ_run defs (onTc (τ := τ) (main (F := Ideal))) ⟨m, fun _ => 0, ρ⟩ fun r => ∀ c : Dev nD,
      r.2.mem ((c : Thread nD τ).loc main_v5)
        = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.L1Attn.Run

end
-- ==== Proof.lean ====
/-
  Pairwise L1-distance attention weights: a tiled kernel against the plain formula.

  Both programs take q, k of shape [1, 512, 8, 64] and return an array of shape [1, 8, 512, 512] whose entry (0, h, s, t) is

      1 / (ε + (1/8) · Σ_w |q[0, t, h, w] − k[0, s, h, w]|),     w over the 64 width coordinates,

  ε the single-precision word 0x3A83126F, 1/8 and 1 exact.

  The reference spreads q and k against each other, subtracts, takes absolute values, sums over the width axis, scales,
  shifts and inverts, on whole arrays. The kernel first moves the position axis of q and of k last, then runs a grid with a
  point per head and per run of 128 key positions: a point holds the head's 64 × 512 query rows and its 64 × 128 key
  rows, sums the absolute differences over the width in four runs of 16 rows accumulated from zero, and scales, shifts
  and inverts; a leading unit axis is added to the grid's array at the end.

  On the extended reals the two agree entry by entry: the same differences and absolute values are summed, once in one
  piece and once in four runs from zero, and addition there is a commutative monoid, so no finiteness of the inputs is
  used. The literals are the same words on both sides and are never evaluated, but for the zero word, which is 0.

  The modules: L1Spec (the weights as a function of q and k; the regrouping of the sum), L1Ref (the reference's result
  is that function), L1Body and L1Store (what one grid point stores, from its two blocks), L1Host (the re-laid q and k
  the windows stage), L1Blocks (each point writes a block of the one array of weights, and the blocks tile it), L1Run
  (the kernel program's run with its result named). Here: the three frames, the idealization's (empty) ledger, and the
  two runs side by side.
-/
import proofs.«149871_j12670153523838_2_alg».proof.Defs
import proofs.«149871_j12670153523838_2_alg».proof.Proof.Gen.Kernel
import proofs.«149871_j12670153523838_2_alg».proof.Proof.Gen.Kernel.Frame
import proofs.«149871_j12670153523838_2_alg».proof.Proof.Gen.KernelIdeal
import proofs.«149871_j12670153523838_2_alg».proof.Proof.Gen.KernelIdeal.Frame
import proofs.«149871_j12670153523838_2_alg».proof.Proof.Gen.ReferenceIdeal
import proofs.«149871_j12670153523838_2_alg».proof.Proof.Gen.ReferenceIdeal.Run
import proofs.«149871_j12670153523838_2_alg».proof.Proof.Gen.ReferenceIdeal.Read
import proofs.«149871_j12670153523838_2_alg».proof.Proof.Gen.Pre_finite_inputs
import proofs.«149871_j12670153523838_2_alg».proof.Proof.L1Ref
import proofs.«149871_j12670153523838_2_alg».proof.Proof.L1Run

noncomputable section

namespace Cert.Proof

open Idealize.ShloMosaic Idealize.ShloMosaic.TcCoe Idealize.SL.Sem

/-- The kernel program as printed runs, and leaves q and k as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves q and k as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation: there is nothing to state. -/
theorem preserves : Cert.preserves_Kernel_KernelIdeal := trivial

/-- From memories that agree on q and k, both programs end with the array of weights of q and k. -/
theorem algebraic : Cert.algebraic_KernelIdeal_ReferenceIdeal := by
  intro m ρ m' ρ' _ hagree
  refine ⟨fun c => Cert.L1Attn.attn (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.L1Attn.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.L1Attn.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
